-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S16x1 .f32) (main_arg7 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg6
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S3200000 32) (main_arg2 : IVec S3200000 32) (main_arg3 : FVec F S3200000 .f32) (main_arg4 : FVec F S128x16 .f32) (main_arg5 : FVec F S16 .f32) (main_arg6 : FVec F S16x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_v13 main_v16
-- ==== Kernel.lean ====
abbrev S100000x128 : Shape := ⟨2, ![100000, 128]⟩
abbrev S3200000 : Shape := ⟨1, ![3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S10000x128 : Shape := ⟨2, ![10000, 128]⟩
abbrev S10000x16 : Shape := ⟨2, ![10000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 53
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000x16, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x16, .f32⟩
  | .hbm, ⟨18, _⟩ => ⟨S3200000x1, .f32⟩
  | .hbm, ⟨19, _⟩ => ⟨S3200000x16, .f32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S1x16, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x1, .f32⟩
  | .hbm, ⟨36, _⟩ => ⟨S3200000x1, .f32⟩
  | .hbm, ⟨37, _⟩ => ⟨S3200000x1, .f32⟩
  | .hbm, ⟨38, _⟩ => ⟨S_, .f32⟩
  | .hbm, ⟨39, _⟩ => ⟨S100000x1, .f32⟩
  | .hbm, ⟨40, _⟩ => ⟨S3200000x1, .i32⟩
  | .hbm, ⟨41, _⟩ => ⟨S100000x1, .f32⟩
  | .hbm, ⟨42, _⟩ => ⟨S1x1, .f32⟩
  | .hbm, ⟨43, _⟩ => ⟨S100000x1, .f32⟩
  | .hbm, ⟨44, _⟩ => ⟨S100000x1, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x1_S10000x1_1_0_0_1_n_n_wf : DotDims.WF S10000x16 S16x1 S10000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000x16, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x16, .f32⟩
  | .hbm, ⟨18, _⟩ => ⟨S3200000x1, .f32⟩
  | .hbm, ⟨19, _⟩ => ⟨S3200000x16, .f32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x1, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x1, .f32⟩
  | .hbm, ⟨41, _⟩ => ⟨S3200000x1, .f32⟩
  | .hbm, ⟨42, _⟩ => ⟨S3200000x1, .f32⟩
  | .hbm, ⟨43, _⟩ => ⟨S_, .f32⟩
  | .hbm, ⟨44, _⟩ => ⟨S100000x1, .f32⟩
  | .hbm, ⟨45, _⟩ => ⟨S3200000x1, .i32⟩
  | .hbm, ⟨46, _⟩ => ⟨S100000x1, .f32⟩
  | .hbm, ⟨47, _⟩ => ⟨S1x1, .f32⟩
  | .hbm, ⟨48, _⟩ => ⟨S100000x1, .f32⟩
  | .hbm, ⟨49, _⟩ => ⟨S100000x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x16_S100000x16_1_0_0_1_n_n_wf : DotDims.WF S100000x128 S128x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.KernelRun.lean ====
/-
  The idealized kernel program's run with its RESULT named.

  The program is four stretches: the first projection (a pipelined matrix product over ten row blocks), the
  edge aggregation on the host, the second projection (bias, rectifier, matrix product; again ten row blocks),
  and the second aggregation with the logistic function on the host.  Every weakly fair execution terminates
  without a fault; the result buffer then holds what the last host stretch leaves from the contents at the end
  of the second pipeline (`Gen.W4` at the result's reference), and the eight argument arrays are as launched.
  The contents at each boundary are the fold `Gen.W0 … Gen.W4`; this statement only reads the final state at
  one more reference than the argument arrays.
-/
import proofs.«103553_j53300544143387_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_main : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Body.lean ====
/-
  The two kernel bodies' stored values, read at one element, at the ideal values.

  The first body rounds its two loaded blocks to bf16 (the identity on extended reals) and multiplies them into a
  zero accumulator: element (p, q) of what it stores is the sum over the 128 input features k of
  x[p, k] · w[k, q].  The second adds the bias row to every row of its loaded block, takes the maximum with zero,
  and multiplies by the 16 × 1 weight column: element (p, q) is the sum over the 16 hidden features k of
  max(h[p, k] + b[0, k], 0) · w[k, q].  The contraction index of the printed matrix product is a one-axis index;
  it is re-indexed by its one coordinate.
-/
import proofs.«103553_j53300544143387_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Cert.KernelIdeal.Facts₀
open Idealize.ShloMosaic Idealize.ShloMosaic.ValueIdx

/-! ## The first body: a 10000 × 128 block times the 128 × 16 weights -/

theorem lhs0_row (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl

theorem rhs0_col (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- Element (p, q) of the first body's stored block is `Σ_k x[p, k] · w[k, q]`. -/
theorem pay0_apply (x0 : Vec Ideal S10000x128 .f32) (x1 : Vec Ideal S128x16 .f32) (p : Fin 10000) (q : Fin 16) :
    k0_pay1 (F := Ideal) x0 x1 (ix2 p q) = ∑ k : Fin 128, x0 (ix2 p k) * x1 (ix2 k q) := by
  unfold k0_pay1
  refine (Ideal.matmul_constant_zero_apply dot_S10000x128_S128x16_S10000x16_1_0_0_1_n_n none _ _ (ix2 p q)).trans ?_
  rw [← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q)
      ((contrEquiv1 dot_S10000x128_S128x16_S10000x16_1_0_0_1_n_n 128 rfl rfl).symm k) = ix2 p k :=
    funext fun a => Fin.ext (by
      match a with
      | ⟨0, _⟩ => exact lhs0_row _ _
      | ⟨1, _⟩ => exact (dot_S10000x128_S128x16_S10000x16_1_0_0_1_n_n.lhsIdx_val_of_single rfl _ _).trans hk)
  have er : dot_S10000x128_S128x16_S10000x16_1_0_0_1_n_n.rhsIdx (ix2 p q)
      ((contrEquiv1 dot_S10000x128_S128x16_S10000x16_1_0_0_1_n_n 128 rfl rfl).symm k) = ix2 k q :=
    funext fun a => Fin.ext (by
      match a with
      | ⟨0, _⟩ => exact (dot_S10000x128_S128x16_S10000x16_1_0_0_1_n_n.rhsIdx_val_of_single rfl _ _).trans hk
      | ⟨1, _⟩ => exact rhs0_col _ _)
  rw [el, er]
  rfl

/-- The same at any index of the stored block, its coordinates read off. -/
theorem pay0_at (x0 : Vec Ideal S10000x128 .f32) (x1 : Vec Ideal S128x16 .f32) (j : S10000x16.Idx) :
    k0_pay1 (F := Ideal) x0 x1 j
      = ∑ k : Fin 128, x0 (ix2 (⟨(j 0).val, idx2_lt0 j⟩ : Fin 10000) k) * x1 (ix2 k (⟨(j 1).val, idx2_lt1 j⟩ : Fin 16)) := by
  obtain ⟨p, q, rfl⟩ : ∃ (p : Fin 10000) (q : Fin 16), j = ix2 p q := ⟨j 0, j 1, eq_ix2 j⟩
  exact pay0_apply x0 x1 p q

/-! ## The second body: bias, rectifier, a 10000 × 16 block times the 16 × 1 weights -/

theorem lhs1_row (i : S10000x1.Idx) (q : dot_S10000x16_S16x1_S10000x1_1_0_0_1_n_n.contr.Idx) :
    (dot_S10000x16_S16x1_S10000x1_1_0_0_1_n_n.lhsIdx i q 0).val = (i 0).val := by
  unfold DotDims.lhsIdx
  rw [dif_neg (show ¬(0 : Fin S10000x16.rank) ∈ dot_S10000x16_S16x1_S10000x1_1_0_0_1_n_n.lhsBatch by decide),
    dif_pos (show (0 : Fin S10000x16.rank) ∈ dot_S10000x16_S16x1_S10000x1_1_0_0_1_n_n.lhsNonContracting by decide)]
  rfl

theorem rhs1_col (i : S10000x1.Idx) (q : dot_S10000x16_S16x1_S10000x1_1_0_0_1_n_n.contr.Idx) :
    (dot_S10000x16_S16x1_S10000x1_1_0_0_1_n_n.rhsIdx i q 1).val = (i 1).val := by
  unfold DotDims.rhsIdx
  rw [dif_neg (show ¬(1 : Fin S16x1.rank) ∈ dot_S10000x16_S16x1_S10000x1_1_0_0_1_n_n.rhsBatch by decide),
    dif_pos (show (1 : Fin S16x1.rank) ∈ dot_S10000x16_S16x1_S10000x1_1_0_0_1_n_n.rhsNonContracting by decide)]
  rfl

/-- Element (p, q) of the second body's stored block is `Σ_k max(h[p, k] + b[0, k], 0) · w[k, q]`. -/
theorem pay1_apply (x0 : Vec Ideal S10000x16 .f32) (x1 : Vec Ideal S1x16 .f32) (x2 : Vec Ideal S16x1 .f32) (p : Fin 10000) (q : Fin 1) :
    k1_pay1 (F := Ideal) x0 x1 x2 (ix2 p q)
      = ∑ k : Fin 16, max (x0 (ix2 p k) + x1 (ix2 (0 : Fin 1) k)) 0 * x2 (ix2 k q) := by
  unfold k1_pay1
  refine (Ideal.matmul_constant_zero_apply dot_S10000x16_S16x1_S10000x1_1_0_0_1_n_n none _ _ (ix2 p q)).trans ?_
  rw [← Equiv.sum_comp (contrEquiv1 dot_S10000x16_S16x1_S10000x1_1_0_0_1_n_n 16 rfl rfl).symm]
  refine Finset.sum_congr rfl fun k _ => ?_
  have hk := contrEquiv1_symm_val dot_S10000x16_S16x1_S10000x1_1_0_0_1_n_n 16 rfl rfl k
  have el : dot_S10000x16_S16x1_S10000x1_1_0_0_1_n_n.lhsIdx (ix2 p q)
      ((contrEquiv1 dot_S10000x16_S16x1_S10000x1_1_0_0_1_n_n 16 rfl rfl).symm k) = ix2 p k :=
    funext fun a => Fin.ext (by
      match a with
      | ⟨0, _⟩ => exact lhs1_row _ _
      | ⟨1, _⟩ => exact (dot_S10000x16_S16x1_S10000x1_1_0_0_1_n_n.lhsIdx_val_of_single rfl _ _).trans hk)
  have er : dot_S10000x16_S16x1_S10000x1_1_0_0_1_n_n.rhsIdx (ix2 p q)
      ((contrEquiv1 dot_S10000x16_S16x1_S10000x1_1_0_0_1_n_n 16 rfl rfl).symm k) = ix2 k q :=
    funext fun a => Fin.ext (by
      match a with
      | ⟨0, _⟩ => exact (dot_S10000x16_S16x1_S10000x1_1_0_0_1_n_n.rhsIdx_val_of_single rfl _ _).trans hk
      | ⟨1, _⟩ => exact rhs1_col _ _)
  rw [el, er]
  show max ((shapeCast S10000x16 x0 Facts₀.shapeCasts_S10000x16_S10000x16) (ix2 p k)
      + broadcastTo S10000x16 (shapeCast S1x16 x1 Facts₀.shapeCasts_S1x16_S1x16) Facts₀.broadcasts_S1x16_S10000x16 (ix2 p k))
      (Ideal.ofBits .f32 0x00000000#32) * x2 (ix2 k q) = _
  rw [shapeCast_self, shapeCast_self, broadcastTo_1b_ab_apply, Ideal.ofBits_zero_f32]

/-- The same at any index of the stored block, its coordinates read off. -/
theorem pay1_at (x0 : Vec Ideal S10000x16 .f32) (x1 : Vec Ideal S1x16 .f32) (x2 : Vec Ideal S16x1 .f32) (j : S10000x1.Idx) :
    k1_pay1 (F := Ideal) x0 x1 x2 j
      = ∑ k : Fin 16, max (x0 (ix2 (⟨(j 0).val, idx2_lt0 j⟩ : Fin 10000) k) + x1 (ix2 (0 : Fin 1) k)) 0
          * x2 (ix2 k (⟨(j 1).val, idx2_lt1 j⟩ : Fin 1)) := by
  obtain ⟨p, q, rfl⟩ : ∃ (p : Fin 10000) (q : Fin 1), j = ix2 p q := ⟨j 0, j 1, eq_ix2 j⟩
  exact pay1_apply x0 x1 x2 p q

end Cert.KernelIdeal.Body

end
-- ==== Proof.Spec.lean ====
/-
  The two dense projections of the two-layer graph convolution, as functions of whole arrays over the extended reals.

  `project x w` is the matrix product of the node features with the first weight matrix: entry (n, j) is the
  sum over the 128 input features k of x[n, k] · w[k, j].

  `activate h b w` is the second layer's dense part applied to the first aggregation `h`: entry (n, 0) is the sum
  over the 16 hidden features k of max(h[n, k] + b[0, k], 0) · w[k, 0], the bias held as a one-row matrix.

  Both are sums in one fixed order of the contraction index; the kernel's blockwise matrix products and the
  reference's whole products are both read as these sums, so no algebraic law of the extended reals beyond
  `0 + s = s` is used and no finiteness of the inputs is needed.
-/
import Idealize.ShloMosaic.PureOps.Ideal
import Idealize.ShloMosaic.Lib.ValueIdx

noncomputable section

open scoped BigOperators

namespace Cert.Gcn

open Idealize.ShloMosaic Idealize.ShloMosaic.ValueIdx

/-- The first projection: `(x · w)[n, j] = Σ_k x[n, k] · w[k, j]` over 100000 nodes, 128 input and 16 hidden features. -/
def project (x : (⟨2, ![100000, 128]⟩ : Shape).Idx → EReal) (w : (⟨2, ![128, 16]⟩ : Shape).Idx → EReal) :
    (⟨2, ![100000, 16]⟩ : Shape).Idx → EReal :=
  fun i => ∑ k : Fin 128, x (ix2 (⟨(i 0).val, idx2_lt0 i⟩ : Fin 100000) k) * w (ix2 k (⟨(i 1).val, idx2_lt1 i⟩ : Fin 16))

/-- The second layer's dense part: `Σ_k max(h[n, k] + b[0, k], 0) · w[k, 0]` over 16 hidden features. -/
def activate (h : (⟨2, ![100000, 16]⟩ : Shape).Idx → EReal) (b : (⟨2, ![1, 16]⟩ : Shape).Idx → EReal)
    (w : (⟨2, ![16, 1]⟩ : Shape).Idx → EReal) : (⟨2, ![100000, 1]⟩ : Shape).Idx → EReal :=
  fun i => ∑ k : Fin 16, max (h (ix2 (⟨(i 0).val, idx2_lt0 i⟩ : Fin 100000) k) + b (ix2 (0 : Fin 1) k)) 0
    * w (ix2 k (⟨(i 1).val, idx2_lt1 i⟩ : Fin 1))

end Cert.Gcn

end
-- ==== Proof.Region0.lean ====
/-
  The first pipeline's output array as one function of its operands.

  The grid has ten points; point t stages rows 10000·t … 10000·t + 9999 of the node features (all 128 columns),
  the whole 128 × 16 weight matrix, and writes back rows 10000·t … 10000·t + 9999 of the result (all 16
  columns).  What point t writes back is therefore its block of the whole product `project x w`: row p of the
  block is row 10000·t + p of the features against the weights.  The ten blocks tile the 100000 rows (row r lies
  in the block of point r / 10000), so after the pipeline the array IS the product, whatever it held before.
  The statement is at any contents `V` of the buffers at the pipeline's entry.
-/
import proofs.«103553_j53300544143387_2_alg».proof.Proof.Gen.KernelIdeal.Frame
import proofs.«103553_j53300544143387_2_alg».proof.Proof.Body
import proofs.«103553_j53300544143387_2_alg».proof.Proof.Spec
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature and result windows sit at block row t, column block 0; the
    weight window at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t
      = ((cfg0.win 2).blk t).view.read (Elt Ideal) (Cert.Gcn.project (V c main_arg0) (V c main_arg4)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x16) origin]
  obtain ⟨e0, e1, e2, e3, e4, e5⟩ := index_facts t
  funext j
  show k0_pay1 (iblk0 V c 0 t) (iblk0 V c 1 t) j
    = Cert.Gcn.project (V c main_arg0) (V c main_arg4) (((cfg0.win 2).blk t).view.emb j)
  refine (Body.pay0_at (iblk0 V c 0 t) (iblk0 V c 1 t) j).trans ?_
  unfold Cert.Gcn.project
  refine Finset.sum_congr rfl fun k _ => ?_
  have hj0 : (j 0).val < 10000 := (j 0).isLt
  have hj1 : (j 1).val < 16 := (j 1).isLt
  refine congrArg₂ (· * ·) ?_ ?_
  · show V c main_arg0 (((cfg0.win 0).blk t).view.emb (ix2 (⟨(j 0).val, hj0⟩ : Fin 10000) k)) = V c main_arg0 _
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V c main_arg4 (((cfg0.win 1).blk t).view.emb (ix2 k (⟨(j 1).val, hj1⟩ : Fin 16))) = V c main_arg4 _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 16 + 1 * (j 1).val = win0_2.index t (1 : Fin 2) * 16 + 1 * (j 1).val
      omega

/-- An index of the result array is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v0).slice (win0_2.rect t)).set ↔ _
  rw [View.set_slice_whole, Rect.mem_set_unit]
  exact Iff.rfl

/-- Every index of the result array is in the block of the point its row falls to. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨e0, e1, e2, e3, e4, e5⟩ := index_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- After the pipeline the result array is the whole product of the feature and weight arrays it was entered with. -/
theorem final (c : Dev nD) :
    (dat0 V c).arrAt 2 cfg0.N = Cert.Gcn.project (V c main_arg0) (V c main_arg4) :=
  (dat0 V c).arrAt_eq_of_cover 2 (Cert.Gcn.project (V c main_arg0) (V c main_arg4)) (fun t _ => flushed_eq V c t) cover

end Cert.KernelIdeal.Region0

end
-- ==== Proof.Region1.lean ====
/-
  The second pipeline's output array as one function of its operands.

  The grid has ten points; point t stages rows 10000·t … 10000·t + 9999 of the aggregated hidden features (all
  16 columns), the whole 1 × 16 bias row and the whole 16 × 1 weight column, and writes back rows
  10000·t … 10000·t + 9999 of the one-column result.  What point t writes back is its block of
  `activate h b w`: row p of the block is row 10000·t + p of the hidden features, biased, rectified and
  contracted with the weights.  The ten blocks tile the 100000 rows, so after the pipeline the array IS
  `activate h b w`.  The statement is at any contents `V` of the buffers at the pipeline's entry.
-/
import proofs.«103553_j53300544143387_2_alg».proof.Proof.Gen.KernelIdeal.Frame
import proofs.«103553_j53300544143387_2_alg».proof.Proof.Body
import proofs.«103553_j53300544143387_2_alg».proof.Proof.Spec
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the hidden-feature and result windows sit at block row t, column block 0;
    the bias and weight windows at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole second-layer dense part. -/
theorem flushed_eq (c : Dev nD) (t : Fin cfg1.N) :
    (dat1 V c).flushed 3 t
      = ((cfg1.win 3).blk t).view.read (Elt Ideal) (Cert.Gcn.activate (V c main_v13) (V c main_v14) (V c main_arg6)) := by
  show (cfg1.win 3).cut (grid1.coords t) ((dat1 V c).after 3 t) = _
  rw [after1_3]
  unfold out1_3
  rw [View.canon_unit_zero origin]
  simp only [View.ld_unit_zero (S := S10000x16) origin, View.ld_unit_zero (S := S1x16) origin, View.ld_unit_zero (S := S16x1) origin]
  obtain ⟨e0, e1, e2, e3, e4, e5, e6, e7⟩ := index_facts t
  funext j
  show k1_pay1 (iblk1 V c 0 t) (iblk1 V c 1 t) (iblk1 V c 2 t) j
    = Cert.Gcn.activate (V c main_v13) (V c main_v14) (V c main_arg6) (((cfg1.win 3).blk t).view.emb j)
  refine (Body.pay1_at (iblk1 V c 0 t) (iblk1 V c 1 t) (iblk1 V c 2 t) j).trans ?_
  unfold Cert.Gcn.activate
  refine Finset.sum_congr rfl fun k _ => ?_
  have hj0 : (j 0).val < 10000 := (j 0).isLt
  have hj1 : (j 1).val < 1 := (j 1).isLt
  refine congrArg₂ (· * ·) (congrArg₂ max (congrArg₂ (· + ·) ?_ ?_) rfl) ?_
  · show V c main_v13 (((cfg1.win 0).blk t).view.emb (ix2 (⟨(j 0).val, hj0⟩ : Fin 10000) k)) = V c main_v13 _
    refine congrArg _ (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ =>
      show win1_0.index t (1 : Fin 2) * 16 + 1 * k.val = k.val
      omega
  · show V c main_v14 (((cfg1.win 1).blk t).view.emb (ix2 (0 : Fin 1) k)) = V c main_v14 _
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 16 + 1 * k.val = k.val
      omega
  · show V c main_arg6 (((cfg1.win 2).blk t).view.emb (ix2 k (⟨(j 1).val, hj1⟩ : Fin 1))) = V c main_arg6 _
    refine congrArg _ (funext fun a => Fin.ext ?_)
    match a with
    | ⟨0, _⟩ =>
      show win1_2.index t (0 : Fin 2) * 16 + 1 * k.val = k.val
      omega
    | ⟨1, _⟩ =>
      show win1_2.index t (1 : Fin 2) * 1 + 1 * (j 1).val = win1_3.index t (1 : Fin 2) * 1 + 1 * (j 1).val
      omega

/-- An index of the result array is in point t's block iff each coordinate is in the block's range on its axis. -/
theorem mem_blk (t : Fin cfg1.N) (i : S100000x1.Idx) :
    i ∈ ((cfg1.win 3).blk t).view.set ↔ ∀ a : Fin 2, win1_3.index t a * S10000x1.size a ≤ (i a).val
      ∧ (i a).val < win1_3.index t a * S10000x1.size a + S10000x1.size a := by
  show i ∈ ((View.whole main_v15).slice (win1_3.rect t)).set ↔ _
  rw [View.set_slice_whole, Rect.mem_set_unit]
  exact Iff.rfl

/-- Every index of the result array is in the block of the point its row falls to. -/
theorem cover (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨e0, e1, e2, e3, e4, e5, e6, e7⟩ := index_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 1 ≤ (i 1).val ∧ (i 1).val < win1_3.index t (1 : Fin 2) * 1 + 1
    omega

/-- After the pipeline the result array is the second layer's dense part of the arrays it was entered with. -/
theorem final (c : Dev nD) :
    (dat1 V c).arrAt 3 cfg1.N = Cert.Gcn.activate (V c main_v13) (V c main_v14) (V c main_arg6) :=
  (dat1 V c).arrAt_eq_of_cover 3 (Cert.Gcn.activate (V c main_v13) (V c main_v14) (V c main_arg6)) (fun t _ => flushed_eq V c t) cover

end Cert.KernelIdeal.Region1

end
-- ==== Proof.HostChain.lean ====
/-
  The host stretches of the idealized kernel program, each as ONE function of the buffers it reads.

  Between the two pipelined projections the program aggregates along the edges: a source index below zero is
  wrapped by the number of nodes, the rows of the first projection are gathered at the sources, scaled by the
  edge weights and added into the rows named by the destinations, starting from zero (`aggregateHidden`).  The
  bias vector is re-laid as a one-row matrix (`biasRow`).  After the second projection the same aggregation
  runs on one column, the output bias is added, and the logistic function 1 / (1 + exp (−u)) is applied
  (`aggregateOut`).  The functions are never opened by the certificate: the reference applies the same
  operations, so both sides meet in them as they stand.
-/
import proofs.«103553_j53300544143387_2_alg».proof.Proof.Gen.KernelIdeal.Launch
import Idealize.ShloMosaic.Lib.StableHlo.Run

noncomputable section

namespace Cert.KernelIdeal.HostChain

open Cert.KernelIdeal Cert.KernelIdeal.Facts₀
open Idealize.ShloMosaic Idealize.ShloMosaic.TcCoe Idealize.SL.Sem Idealize.ShloMosaic.StableHlo

variable {F : FTy → Type} [FloatOps F]

/-- The aggregation of a 16-column array along the edges: gather the rows at the (wrapped) sources, scale each
    by its edge weight, add into the destination rows of a zero array. -/
def aggregateHidden (z : (⟨S100000x16, .f32⟩ : BufTy).Contents (Elt F)) (src dst : (⟨S3200000, .i32⟩ : BufTy).Contents (Elt F))
    (ew : (⟨S3200000, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf (Host.gather gather_S100000x16_S3200000x1_S3200000x16_1_0_n_n_0_1_116 z
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x16 ![0, 1] bcast_S3200000x1_S3200000x16_0_1 (broadcastInDim S3200000x1 ![0] bcast_S3200000_S3200000x1_0 ew)))

/-- The hidden bias as a one-row matrix. -/
def biasRow (b : (⟨S16, .f32⟩ : BufTy).Contents (Elt F)) : (⟨S1x16, .f32⟩ : BufTy).Contents (Elt F) :=
  shapeCast S1x16 b shapeCasts_S16_S1x16

/-- The aggregation of a one-column array along the edges, the output bias added and the logistic function applied. -/
def aggregateOut (z : (⟨S100000x1, .f32⟩ : BufTy).Contents (Elt F)) (src dst : (⟨S3200000, .i32⟩ : BufTy).Contents (Elt F))
    (ew : (⟨S3200000, .f32⟩ : BufTy).Contents (Elt F)) (b : (⟨S1, .f32⟩ : BufTy).Contents (Elt F)) : (⟨S100000x1, .f32⟩ : BufTy).Contents (Elt F) :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf
        (Host.scatterAdd scatter_S100000x1_S3200000x1_S3200000x1_1_0_0_1
          (broadcastInDim S100000x1 ![] bcast_S_S100000x1 (constant S_ .f32 0x00000000#32))
          (broadcastInDim S3200000x1 ![0] bcast_S3200000_S3200000x1_0 dst)
          (mulf (Host.gather gather_S100000x1_S3200000x1_S3200000x1_1_0_n_n_0_1_11 z
              (broadcastInDim S3200000x1 ![0] bcast_S3200000_S3200000x1_0
                (select (cmpi .slt src (broadcastInDim S3200000 ![] bcast_S_S3200000 (constantI S_ 32 0#32)))
                  (addi src (broadcastInDim S3200000 ![] bcast_S_S3200000 (constantI S_ 32 100000#32))) src)))
            (broadcastInDim S3200000x1 ![0] bcast_S3200000_S3200000x1_0 ew)))
        (broadcastInDim S100000x1 ![0, 1] bcast_S1x1_S100000x1_0_1 (broadcastInDim S1x1 ![1] bcast_S1_S1x1_1 b))))))

variable (W : Valuation τ sig (Elt F))

/-- After the first host stretch the second pipeline's first operand holds the aggregation of the first
    pipeline's result. -/
theorem after1_hidden : StableHlo.after Gen.hostOps1 W (Proc.devRef .tc main_v13)
    = aggregateHidden (W (Proc.devRef .tc main_v0)) (W (Proc.devRef .tc main_arg1)) (W (Proc.devRef .tc main_arg2)) (W (Proc.devRef .tc main_arg3)) := by
  unfold aggregateHidden
  after_results_simp <;> rfl

/-- … its second operand the bias row, -/
theorem after1_bias : StableHlo.after Gen.hostOps1 W (Proc.devRef .tc main_v14) = biasRow (W (Proc.devRef .tc main_arg5)) := by
  unfold biasRow
  after_results_simp <;> rfl

/-- … and the arrays the later stretches read are untouched. -/
theorem after1_arg1 : StableHlo.after Gen.hostOps1 W (Proc.devRef .tc main_arg1) = W (Proc.devRef .tc main_arg1) := by
  after_results_simp <;> rfl
theorem after1_arg2 : StableHlo.after Gen.hostOps1 W (Proc.devRef .tc main_arg2) = W (Proc.devRef .tc main_arg2) := by
  after_results_simp <;> rfl
theorem after1_arg3 : StableHlo.after Gen.hostOps1 W (Proc.devRef .tc main_arg3) = W (Proc.devRef .tc main_arg3) := by
  after_results_simp <;> rfl
theorem after1_arg6 : StableHlo.after Gen.hostOps1 W (Proc.devRef .tc main_arg6) = W (Proc.devRef .tc main_arg6) := by
  after_results_simp <;> rfl
theorem after1_arg7 : StableHlo.after Gen.hostOps1 W (Proc.devRef .tc main_arg7) = W (Proc.devRef .tc main_arg7) := by
  after_results_simp <;> rfl

/-- After the last host stretch the result buffer holds the aggregation of the second pipeline's result. -/
theorem after2_out : StableHlo.after Gen.hostOps2 W (Proc.devRef .tc main_v36)
    = aggregateOut (W (Proc.devRef .tc main_v15)) (W (Proc.devRef .tc main_arg1)) (W (Proc.devRef .tc main_arg2)) (W (Proc.devRef .tc main_arg3)) (W (Proc.devRef .tc main_arg7)) := by
  unfold aggregateOut
  after_results_simp <;> rfl

end Cert.KernelIdeal.HostChain

end
-- ==== Proof.KernelValue.lean ====
/-
  The idealized kernel program's result as one function of the argument arrays.

  The buffer contents are followed through the program's four stretches.  The first pipeline leaves
  `project x w0` in its result array and nothing else changed; the first host stretch leaves the edge
  aggregation of that array in the second pipeline's first operand, the bias as a row in its second, and the
  arguments untouched; the second pipeline leaves `activate` of these in its result array; the last host
  stretch leaves the second aggregation, biased and passed through the logistic function, in the program's
  result.  Each step rewrites one boundary's contents by the lemma for the stretch before it.
-/
import proofs.«103553_j53300544143387_2_alg».proof.Proof.KernelRun
import proofs.«103553_j53300544143387_2_alg».proof.Proof.Region0
import proofs.«103553_j53300544143387_2_alg».proof.Proof.Region1
import proofs.«103553_j53300544143387_2_alg».proof.Proof.HostChain

set_option maxRecDepth 16384

noncomputable section

namespace Cert.KernelIdeal.KernelValue

open Cert.KernelIdeal Cert.KernelIdeal.Gen
open Idealize.ShloMosaic Idealize.ShloMosaic.TcCoe Idealize.SL.Sem
open Cert.KernelIdeal.HostChain (aggregateHidden biasRow aggregateOut)

variable (m : (ℓ : Loc nD τ sig) → Buf (Elt Ideal) ℓ) (ρ : Dev nD → PrngReg)

/-! ## After the first pipeline -/

theorem w1_proj (c : Dev nD) : W1 m ρ c (Proc.devRef .tc main_v0)
    = Cert.Gcn.project (m ((c.tc : Thread nD τ).loc main_arg0)) (m ((c.tc : Thread nD τ).loc main_arg4)) :=
  (W1_arr m ρ c 2).trans (Region0.final (V0 m ρ) c)

theorem w1_arg1 (c : Dev nD) : W1 m ρ c (Proc.devRef .tc main_arg1) = m ((c.tc : Thread nD τ).loc main_arg1) :=
  W1_of_ne m ρ c main_arg1 (by decide)
theorem w1_arg2 (c : Dev nD) : W1 m ρ c (Proc.devRef .tc main_arg2) = m ((c.tc : Thread nD τ).loc main_arg2) :=
  W1_of_ne m ρ c main_arg2 (by decide)
theorem w1_arg3 (c : Dev nD) : W1 m ρ c (Proc.devRef .tc main_arg3) = m ((c.tc : Thread nD τ).loc main_arg3) :=
  W1_of_ne m ρ c main_arg3 (by decide)
theorem w1_arg5 (c : Dev nD) : W1 m ρ c (Proc.devRef .tc main_arg5) = m ((c.tc : Thread nD τ).loc main_arg5) :=
  W1_of_ne m ρ c main_arg5 (by decide)
theorem w1_arg6 (c : Dev nD) : W1 m ρ c (Proc.devRef .tc main_arg6) = m ((c.tc : Thread nD τ).loc main_arg6) :=
  W1_of_ne m ρ c main_arg6 (by decide)
theorem w1_arg7 (c : Dev nD) : W1 m ρ c (Proc.devRef .tc main_arg7) = m ((c.tc : Thread nD τ).loc main_arg7) :=
  W1_of_ne m ρ c main_arg7 (by decide)

/-! ## After the first host stretch: the second pipeline's entry -/

theorem w2_hidden (c : Dev nD) : V2 m ρ c main_v13
    = aggregateHidden (Cert.Gcn.project (m ((c.tc : Thread nD τ).loc main_arg0)) (m ((c.tc : Thread nD τ).loc main_arg4)))
        (m ((c.tc : Thread nD τ).loc main_arg1)) (m ((c.tc : Thread nD τ).loc main_arg2)) (m ((c.tc : Thread nD τ).loc main_arg3)) :=
  (HostChain.after1_hidden (W1 m ρ c)).trans (by rw [w1_proj, w1_arg1, w1_arg2, w1_arg3])

theorem w2_bias (c : Dev nD) : V2 m ρ c main_v14 = biasRow (m ((c.tc : Thread nD τ).loc main_arg5)) :=
  (HostChain.after1_bias (W1 m ρ c)).trans (by rw [w1_arg5])

theorem w2_arg6 (c : Dev nD) : V2 m ρ c main_arg6 = m ((c.tc : Thread nD τ).loc main_arg6) :=
  (HostChain.after1_arg6 (W1 m ρ c)).trans (w1_arg6 m ρ c)

/-! ## After the second pipeline -/

theorem w3_out (c : Dev nD) : W3 m ρ c (Proc.devRef .tc main_v15)
    = Cert.Gcn.activate
        (aggregateHidden (Cert.Gcn.project (m ((c.tc : Thread nD τ).loc main_arg0)) (m ((c.tc : Thread nD τ).loc main_arg4)))
          (m ((c.tc : Thread nD τ).loc main_arg1)) (m ((c.tc : Thread nD τ).loc main_arg2)) (m ((c.tc : Thread nD τ).loc main_arg3)))
        (biasRow (m ((c.tc : Thread nD τ).loc main_arg5))) (m ((c.tc : Thread nD τ).loc main_arg6)) :=
  (W3_arr m ρ c 3).trans ((Region1.final (V2 m ρ) c).trans (by rw [w2_hidden, w2_bias, w2_arg6]))

theorem w3_arg1 (c : Dev nD) : W3 m ρ c (Proc.devRef .tc main_arg1) = m ((c.tc : Thread nD τ).loc main_arg1) :=
  (W3_of_ne m ρ c main_arg1 (by decide)).trans ((HostChain.after1_arg1 (W1 m ρ c)).trans (w1_arg1 m ρ c))
theorem w3_arg2 (c : Dev nD) : W3 m ρ c (Proc.devRef .tc main_arg2) = m ((c.tc : Thread nD τ).loc main_arg2) :=
  (W3_of_ne m ρ c main_arg2 (by decide)).trans ((HostChain.after1_arg2 (W1 m ρ c)).trans (w1_arg2 m ρ c))
theorem w3_arg3 (c : Dev nD) : W3 m ρ c (Proc.devRef .tc main_arg3) = m ((c.tc : Thread nD τ).loc main_arg3) :=
  (W3_of_ne m ρ c main_arg3 (by decide)).trans ((HostChain.after1_arg3 (W1 m ρ c)).trans (w1_arg3 m ρ c))
theorem w3_arg7 (c : Dev nD) : W3 m ρ c (Proc.devRef .tc main_arg7) = m ((c.tc : Thread nD τ).loc main_arg7) :=
  (W3_of_ne m ρ c main_arg7 (by decide)).trans ((HostChain.after1_arg7 (W1 m ρ c)).trans (w1_arg7 m ρ c))

/-! ## The result -/

/-- The function of the eight argument arrays both programs compute. -/
def spec (x0 : (⟨S100000x128, .f32⟩ : BufTy).Contents (Elt Ideal)) (x1 x2 : (⟨S3200000, .i32⟩ : BufTy).Contents (Elt Ideal))
    (x3 : (⟨S3200000, .f32⟩ : BufTy).Contents (Elt Ideal)) (x4 : (⟨S128x16, .f32⟩ : BufTy).Contents (Elt Ideal))
    (x5 : (⟨S16, .f32⟩ : BufTy).Contents (Elt Ideal)) (x6 : (⟨S16x1, .f32⟩ : BufTy).Contents (Elt Ideal))
    (x7 : (⟨S1, .f32⟩ : BufTy).Contents (Elt Ideal)) : (⟨S100000x1, .f32⟩ : BufTy).Contents (Elt Ideal) :=
  aggregateOut (F := Ideal) (Cert.Gcn.activate (aggregateHidden (F := Ideal) (Cert.Gcn.project x0 x4) x1 x2 x3) (biasRow (F := Ideal) x5) x6)
    x1 x2 x3 x7

/-- The last boundary's contents at the result buffer are `spec` of the launch contents of the arguments. -/
theorem result_eq (c : Dev nD) : W4 m ρ c (Proc.devRef .tc main_v36)
    = spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) :=
  (HostChain.after2_out (W3 m ρ c)).trans (by rw [w3_out, w3_arg1, w3_arg2, w3_arg3, w3_arg7]; rfl)

/-- The program's run with its result at `spec` of the arguments, the arguments unchanged. -/
theorem run : θ_run defs (onTc (τ := τ) (main (F := Ideal))) ⟨m, fun _ => 0, ρ⟩ (fun r => ∀ c : Dev nD,
      r.2.mem ((c.tc : Thread nD τ).loc main_v36)
        = spec (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (RunValue.run_main m ρ)

end Cert.KernelIdeal.KernelValue

end
-- ==== Proof.RefValue.lean ====
/-
  The reference's result as the same function of the argument arrays as the kernel's.

  The reference multiplies the node features by the first weights in one whole product, aggregates along the
  edges, adds the bias (broadcast from a vector to a row to all rows), rectifies by a maximum with a zero array,
  multiplies by the second weights in one whole product, aggregates again, adds the output bias and applies the
  logistic function.  Read at an element, the first product is `project` and the bias-rectify-product stage is
  `activate` of the first aggregation (the bias row read back to the vector it was broadcast from, the zero
  array to the real zero); the two aggregations are the very host operations of the kernel program.
-/
import proofs.«103553_j53300544143387_2_alg».proof.Proof.Gen.ReferenceIdeal.Read
import proofs.«103553_j53300544143387_2_alg».proof.Proof.Spec
import proofs.«103553_j53300544143387_2_alg».proof.Proof.HostChain
import Idealize.ShloMosaic.Lib.ValueLayout

noncomputable section

open scoped BigOperators

namespace Cert.ReferenceIdeal.RefValue

open Cert.ReferenceIdeal Cert.ReferenceIdeal.Read
open Idealize.ShloMosaic Idealize.ShloMosaic.ValueIdx
open Cert.KernelIdeal.HostChain (aggregateHidden biasRow aggregateOut)

/-- The reference's first whole product is `project`. -/
theorem project_eq (x0 : (⟨S100000x128, .f32⟩ : BufTy).Contents (Elt Ideal)) (x4 : (⟨S128x16, .f32⟩ : BufTy).Contents (Elt Ideal)) :
    val_main_v0 (F := Ideal) x0 x4 = Cert.Gcn.project x0 x4 := by
  funext i
  rw [val_main_v0_apply]
  unfold Cert.Gcn.project
  refine Finset.sum_congr rfl fun k _ => ?_
  have el : lidx_main_v0 i k = ix2 (⟨(i 0).val, idx2_lt0 i⟩ : Fin 100000) k :=
    funext fun a => Fin.ext (by match a with | ⟨0, _⟩ => rfl | ⟨1, _⟩ => rfl)
  have er : ridx_main_v0 i k = ix2 k (⟨(i 1).val, idx2_lt1 i⟩ : Fin 16) :=
    funext fun a => Fin.ext (by match a with | ⟨0, _⟩ => rfl | ⟨1, _⟩ => rfl)
  rw [el, er]

/-- The reference's bias, rectifier and second whole product are `activate` of the first aggregation. -/
theorem activate_eq (x0 : (⟨S100000x128, .f32⟩ : BufTy).Contents (Elt Ideal)) (x1 x2 : (⟨S3200000, .i32⟩ : BufTy).Contents (Elt Ideal))
    (x3 : (⟨S3200000, .f32⟩ : BufTy).Contents (Elt Ideal)) (x4 : (⟨S128x16, .f32⟩ : BufTy).Contents (Elt Ideal))
    (x5 : (⟨S16, .f32⟩ : BufTy).Contents (Elt Ideal)) (x6 : (⟨S16x1, .f32⟩ : BufTy).Contents (Elt Ideal)) :
    val_main_v18 (F := Ideal) x0 x1 x2 x3 x4 x5 x6
      = Cert.Gcn.activate (val_main_v13 (F := Ideal) x0 x1 x2 x3 x4) (biasRow (F := Ideal) x5) x6 := by
  funext i
  rw [val_main_v18_apply]
  unfold Cert.Gcn.activate
  refine Finset.sum_congr rfl fun k _ => ?_
  have el : lidx_main_v18 i k = ix2 (⟨(i 0).val, idx2_lt0 i⟩ : Fin 100000) k :=
    funext fun a => Fin.ext (by match a with | ⟨0, _⟩ => rfl | ⟨1, _⟩ => rfl)
  have er : ridx_main_v18 i k = ix2 k (⟨(i 1).val, idx2_lt1 i⟩ : Fin 1) :=
    funext fun a => Fin.ext (by match a with | ⟨0, _⟩ => rfl | ⟨1, _⟩ => rfl)
  have eb : idx_main_v14 (idx_main_v15 (ix2 (⟨(i 0).val, idx2_lt0 i⟩ : Fin 100000) k)) = ix1 k :=
    funext fun a => Fin.ext (by match a with | ⟨0, _⟩ => rfl)
  rw [el, er, val_main_v17_apply, val_main_v16_apply, val_main_v15_apply, val_main_v14_apply, eb,
    val_main_call0_v0_apply, val_main_call0_cst_apply]
  unfold biasRow
  rw [shapeCast_a_1a_apply]
  show max (_ + _) (Ideal.ofBits .f32 0x00000000#32) * _ = _
  rw [Ideal.ofBits_zero_f32]

/-- The reference's whole result: both aggregations as the kernel program's host functions, around `project` and
    `activate`. -/
theorem result_eq (x0 : (⟨S100000x128, .f32⟩ : BufTy).Contents (Elt Ideal)) (x1 x2 : (⟨S3200000, .i32⟩ : BufTy).Contents (Elt Ideal))
    (x3 : (⟨S3200000, .f32⟩ : BufTy).Contents (Elt Ideal)) (x4 : (⟨S128x16, .f32⟩ : BufTy).Contents (Elt Ideal))
    (x5 : (⟨S16, .f32⟩ : BufTy).Contents (Elt Ideal)) (x6 : (⟨S16x1, .f32⟩ : BufTy).Contents (Elt Ideal))
    (x7 : (⟨S1, .f32⟩ : BufTy).Contents (Elt Ideal)) :
    val_main_v39 (F := Ideal) x0 x1 x2 x3 x4 x5 x6 x7
      = aggregateOut (F := Ideal) (Cert.Gcn.activate (aggregateHidden (F := Ideal) (Cert.Gcn.project x0 x4) x1 x2 x3) (biasRow (F := Ideal) x5) x6)
          x1 x2 x3 x7 := by
  have h13 : val_main_v13 (F := Ideal) x0 x1 x2 x3 x4 = aggregateHidden (F := Ideal) (val_main_v0 (F := Ideal) x0 x4) x1 x2 x3 := rfl
  have h39 : val_main_v39 (F := Ideal) x0 x1 x2 x3 x4 x5 x6 x7
      = aggregateOut (F := Ideal) (val_main_v18 (F := Ideal) x0 x1 x2 x3 x4 x5 x6) x1 x2 x3 x7 := rfl
  rw [h39, activate_eq, h13, project_eq]

end Cert.ReferenceIdeal.RefValue

end
-- ==== Proof.lean ====
/-
  A two-layer graph convolution: the kernel program against its plain reference, equal at the ideal values.

  Both programs compute, for node features x (100000 × 128), edges (src, dst) with weights ew (3200000 of them),
  weights w0 (128 × 16), w1 (16 × 1) and biases b0, b1,

      out = σ( A · ( max(A · (x · w0) + b0, 0) · w1 ) + b1 ),        (A · z)[n] = Σ_{e : dst e = n} ew[e] · z[src e],

  with σ(u) = 1 / (1 + exp (−u)).  The kernel program computes the two dense products x · w0 and
  max(· + b0, 0) · w1 in pipelined kernels over ten blocks of 10000 rows (rounding the operands to bf16, the
  identity on extended reals, and multiplying into a zero accumulator) and leaves the two edge aggregations to
  the same host operations the reference uses.  The reference computes the dense products as whole products.

  At the ideal values a matrix product into a zero accumulator and a whole product are the same sum over the
  contraction index, in the same order; a block of rows of a product is the product of that block of rows; so
  each pipeline's result array is the whole product (`Proof/Region0.lean`, `Proof/Region1.lean` over the element
  readings of `Proof/Body.lean`), the kernel program's result is one function `KernelValue.spec` of its arguments
  (`Proof/KernelValue.lean` over the run of `Proof/KernelRun.lean` and the host stretches of `Proof/HostChain.lean`),
  and the reference's result is the same function (`Proof/RefValue.lean`).  No law of the extended reals that
  fails at an infinity is used, so the finiteness of the inputs is not needed for the equality.

  The three frame claims are the generated frame certificates (the reference's is its generated run with the
  result dropped); the idealization rewrote nothing, so `preserves` is trivial.
-/
import proofs.«103553_j53300544143387_2_alg».proof.Defs
import proofs.«103553_j53300544143387_2_alg».proof.Proof.Gen.Kernel
import proofs.«103553_j53300544143387_2_alg».proof.Proof.Gen.Kernel.Skeleton
import proofs.«103553_j53300544143387_2_alg».proof.Proof.Gen.Kernel.Launch
import proofs.«103553_j53300544143387_2_alg».proof.Proof.Gen.Kernel.Points
import proofs.«103553_j53300544143387_2_alg».proof.Proof.Gen.Kernel.Frame
import proofs.«103553_j53300544143387_2_alg».proof.Proof.Gen.KernelIdeal
import proofs.«103553_j53300544143387_2_alg».proof.Proof.Gen.KernelIdeal.Skeleton
import proofs.«103553_j53300544143387_2_alg».proof.Proof.Gen.KernelIdeal.Launch
import proofs.«103553_j53300544143387_2_alg».proof.Proof.Gen.KernelIdeal.Points
import proofs.«103553_j53300544143387_2_alg».proof.Proof.Gen.KernelIdeal.Frame
import proofs.«103553_j53300544143387_2_alg».proof.Proof.Gen.ReferenceIdeal
import proofs.«103553_j53300544143387_2_alg».proof.Proof.Gen.Pre_finite_inputs
import proofs.«103553_j53300544143387_2_alg».proof.Proof.Gen.ReferenceIdeal.Run
import proofs.«103553_j53300544143387_2_alg».proof.Proof.Gen.ReferenceIdeal.Read
import proofs.«103553_j53300544143387_2_alg».proof.Proof.KernelValue
import proofs.«103553_j53300544143387_2_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with `KernelValue.spec` of the arguments
    in their result buffers. -/
theorem algebraic : Cert.algebraic_KernelIdeal_ReferenceIdeal := by
  intro m ρ m' ρ' _ hagree
  refine ⟨fun c => Cert.KernelIdeal.KernelValue.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v39_eq, Cert.ReferenceIdeal.RefValue.result_eq, h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
